-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024 : Shape := ⟨1, ![1024]⟩
abbrev S1024x1 : Shape := ⟨2, ![1024, 1]⟩
abbrev S8192x2048 : Shape := ⟨2, ![8192, 2048]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_arg5 : FVec F S8192x2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_c_8 : IVec S_ 32 := constantI S_ 32 4294963200#32
  let main_v24 : IVec S1024 32 := broadcastInDim S1024 ![] bcast_S_S1024 main_c_8
  let main_v25 : IVec S1024 1 := cmpi .sge main_arg1 main_v24
  let main_c_9 : IVec S_ 32 := constantI S_ 32 4096#32
  let main_v26 : IVec S1024 32 := broadcastInDim S1024 ![] bcast_S_S1024 main_c_9
  let main_v27 : IVec S1024 1 := cmpi .slt main_arg1 main_v26
  let main_v28 : IVec S1024 1 := andi main_v25 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v23 main_v29
  main_v30

def fn {F : FTy → Type} [FloatOps F] (main_arg0 : FVec F S4096x2048 .f32) (main_arg1 : IVec S1024 32) (main_arg2 : FVec F S1024x1 .f32) (main_arg3 : FVec F S8192x2048 .f32) (main_arg4 : FVec F S2048x8192 .f32) (main_arg5 : FVec F S8192x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1024x1 .f32 := Host.absf main_arg2
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg4
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg1 main_arg5 main_v13 main_v16
-- ==== Kernel.lean ====
abbrev S4096x2048 : Shape := ⟨2, ![4096, 2048]⟩
abbrev S1024 : Shape := ⟨1, ![1024]⟩
abbrev S1024x1 : Shape := ⟨2, ![1024, 1]⟩
abbrev S8192x2048 : Shape := ⟨2, ![8192, 2048]⟩
abbrev S2048x8192 : Shape := ⟨2, ![2048, 8192]⟩
abbrev S_ : Shape := ⟨0, ![]⟩
abbrev S1 : Shape := ⟨1, ![1]⟩
abbrev S1x1 : Shape := ⟨2, ![1, 1]⟩
abbrev S1024x2048 : Shape := ⟨2, ![1024, 2048]⟩
abbrev S1024x8192 : Shape := ⟨2, ![1024, 8192]⟩
abbrev S512x2048 : Shape := ⟨2, ![512, 2048]⟩
abbrev S1024x512 : Shape := ⟨2, ![1024, 512]⟩
abbrev S256x8192 : Shape := ⟨2, ![256, 8192]⟩
abbrev S1024x256 : Shape := ⟨2, ![1024, 256]⟩

abbrev nBuf : Space → Nat
  | .hbm => 31
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1024, .i32⟩
  | .hbm, ⟨2, _⟩ => ⟨S1024x1, .f32⟩
  | .hbm, ⟨3, _⟩ => ⟨S8192x2048, .f32⟩
  | .hbm, ⟨4, _⟩ => ⟨S2048x8192, .f32⟩
  | .hbm, ⟨5, _⟩ => ⟨S8192x2048, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x2048, .f32⟩
  | .hbm, ⟨25, _⟩ => ⟨S1024x2048, .i1⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x8192, .bf16⟩
  | .hbm, ⟨30, _⟩ => ⟨S1024x2048, .f32⟩
  | .local _ .vmem, ⟨0, _⟩ => ⟨S1024x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S1024x1, .f32⟩
  | .local _ .vmem, ⟨6, _⟩ => ⟨S1024x512, .bf16⟩
  | .local _ .vmem, ⟨7, _⟩ => ⟨S1024x512, .bf16⟩
  | .local _ .vmem, ⟨8, _⟩ => ⟨S1024x8192, .bf16⟩
  | .local _ .vmem, ⟨9, _⟩ => ⟨S256x8192, .f32⟩
  | .local _ .vmem, ⟨10, _⟩ => ⟨S256x8192, .f32⟩
  | .local _ .vmem, ⟨11, _⟩ => ⟨S1024x256, .f32⟩
  | .local _ .vmem, ⟨12, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x2048_0 : S1024.BroadcastsInDim S1024x2048 (![0] : Fin 1 → Fin S1024x2048.rank)
  bcast_S_S1024x2048 : S_.BroadcastsInDim S1024x2048 (![] : Fin 0 → Fin S1024x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S256x8192_S256x8192_0_0 : ∀ a, (![0, 0] : Fin 2 → Nat) a + S256x8192.size a ≤ S256x8192.size a
  h_S256x8192 : 0 < S256x8192.numel
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1024x256_S1024x256_0_0 : ∀ a, (![0, 0] : Fin 2 → Nat) a + S1024x256.size a ≤ S1024x256.size a
  h_S1024x256 : 0 < S1024x256.numel
  gather_S4096x2048_S1024x1_S1024x2048_1_0_n_n_0_1_12048_wf : GatherDims.WF S4096x2048 S1024x1 S1024x2048 [1] [0] [] [0] [] 1 ![1, 2048]
  dot_S1024x2048_S512x2048_S1024x512_1_1_0_0_n_n_wf : DotDims.WF S1024x2048 S512x2048 S1024x512 [1] [1] [0] [0] [] []
  dot_S1024x8192_S256x8192_S1024x256_1_1_0_0_n_n_wf : DotDims.WF S1024x8192 S256x8192 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x8192.size a
  hwx0_4 : ∀ i : grid0.Coords, EltTy.bits .bf16 = 32 ∨ (Rect.block (s := S1024x8192) S1024x512.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S1024x8192.size a
  hwx1_0 : ∀ i : grid1.Coords, EltTy.bits .bf16 = 32 ∨ (Rect.block (s := S1024x8192) S1024x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .f32 = 32 ∨ (Rect.block (s := S2048x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x2048.size a
  hwx1_2 : ∀ i : grid1.Coords, EltTy.bits .f32 = 32 ∨ (Rect.block (s := S1024x2048) S1024x256.size (cc1_transform_2 i) (hinb1_2 i)).WholeWords (EltTy.packing .f32)

variable [Facts₀]

def gather_S4096x2048_S1024x1_S1024x2048_1_0_n_n_0_1_12048 : GatherDims S4096x2048 S1024x1 S1024x2048 where
  offsetDims := [1]
  collapsedSliceDims := [0]
  operandBatchingDims := []
  startIndicesBatchingDims := []
  startIndexMap := [0]
  indexVectorDim := 1
  sliceSizes := ![1, 2048]
  wf := gather_S4096x2048_S1024x1_S1024x2048_1_0_n_n_0_1_12048_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x8192_S256x8192_S1024x256_1_1_0_0_n_n : DotDims S1024x8192 S256x8192 S1024x256 where
  lhsContracting := [1]
  rhsContracting := [1]
  lhsNonContracting := [0]
  rhsNonContracting := [0]
  lhsBatch := []
  rhsBatch := []
  wf := dot_S1024x8192_S256x8192_S1024x256_1_1_0_0_n_n_wf

abbrev win0_0 : Pipeline.Window sig grid0 :=
  Pipeline.Window.ofSpec (Memref.whole main_v0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S1024 : Shape := ⟨1, ![1024]⟩
abbrev S1024x1 : Shape := ⟨2, ![1024, 1]⟩
abbrev S8192x2048 : Shape := ⟨2, ![8192, 2048]⟩
abbrev S2048x8192 : Shape := ⟨2, ![2048, 8192]⟩
abbrev S_ : Shape := ⟨0, ![]⟩
abbrev S1 : Shape := ⟨1, ![1]⟩
abbrev S1x1 : Shape := ⟨2, ![1, 1]⟩
abbrev S1024x2048 : Shape := ⟨2, ![1024, 2048]⟩
abbrev S1024x8192 : Shape := ⟨2, ![1024, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024, .i32⟩
  | .hbm, ⟨2, _⟩ => ⟨S1024x1, .f32⟩
  | .hbm, ⟨3, _⟩ => ⟨S8192x2048, .f32⟩
  | .hbm, ⟨4, _⟩ => ⟨S2048x8192, .f32⟩
  | .hbm, ⟨5, _⟩ => ⟨S8192x2048, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x2048, .f32⟩
  | .hbm, ⟨25, _⟩ => ⟨S1024x2048, .i1⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S2048x8192, .f32⟩
  | .hbm, ⟨30, _⟩ => ⟨S1024x8192, .f32⟩
  | .hbm, ⟨31, _⟩ => ⟨S1024x8192, .f32⟩
  | .hbm, ⟨32, _⟩ => ⟨S1024x8192, .f32⟩
  | .hbm, ⟨33, _⟩ => ⟨S_, .f32⟩
  | .hbm, ⟨34, _⟩ => ⟨S1024x8192, .f32⟩
  | .hbm, ⟨35, _⟩ => ⟨S1024x8192, .f32⟩
  | .hbm, ⟨36, _⟩ => ⟨S_, .f32⟩
  | .hbm, ⟨37, _⟩ => ⟨S1024x8192, .f32⟩
  | .hbm, ⟨38, _⟩ => ⟨S1024x8192, .f32⟩
  | .hbm, ⟨39, _⟩ => ⟨S1024x8192, .f32⟩
  | .hbm, ⟨40, _⟩ => ⟨S2048x8192, .f32⟩
  | .hbm, ⟨41, _⟩ => ⟨S1024x8192, .f32⟩
  | .hbm, ⟨42, _⟩ => ⟨S1024x8192, .f32⟩
  | .hbm, ⟨43, _⟩ => ⟨S8192x2048, .f32⟩
  | .hbm, ⟨44, _⟩ => ⟨S1024x2048, .f32⟩
  | .hbm, ⟨45, _⟩ => ⟨S1024x2048, .f32⟩
  | .hbm, ⟨46, _⟩ => ⟨S1024x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x2048_0 : S1024.BroadcastsInDim S1024x2048 (![0] : Fin 1 → Fin S1024x2048.rank)
  bcast_S_S1024x2048 : S_.BroadcastsInDim S1024x2048 (![] : Fin 0 → Fin S1024x2048.rank)
  transposes_S8192x2048_S2048x8192_1_0 : S8192x2048.Transposes [1, 0] S2048x8192
  bcast_S_S1024x8192 : S_.BroadcastsInDim S1024x8192 (![] : Fin 0 → Fin S1024x8192.rank)
  transposes_S2048x8192_S8192x2048_1_0 : S2048x8192.Transposes [1, 0] S8192x2048
  bcast_S1024x1_S1024x2048_0_1 : S1024x1.BroadcastsInDim S1024x2048 (![0, 1] : Fin 2 → Fin S1024x2048.rank)
  gather_S4096x2048_S1024x1_S1024x2048_1_0_n_n_0_1_12048_wf : GatherDims.WF S4096x2048 S1024x1 S1024x2048 [1] [0] [] [0] [] 1 ![1, 2048]
  dot_S1024x2048_S2048x8192_S1024x8192_1_0_0_1_n_n_wf : DotDims.WF S1024x2048 S2048x8192 S1024x8192 [1] [0] [0] [1] [] []
  dot_S1024x8192_S8192x2048_S1024x2048_1_0_0_1_n_n_wf : DotDims.WF S1024x8192 S8192x2048 S1024x2048 [1] [0] [0] [1] [] []

variable [Facts₀]

def gather_S4096x2048_S1024x1_S1024x2048_1_0_n_n_0_1_12048 : GatherDims S4096x2048 S1024x1 S1024x2048 where
  offsetDims := [1]
  collapsedSliceDims := [0]
  operandBatchingDims := []
  startIndicesBatchingDims := []
  startIndexMap := [0]
  indexVectorDim := 1
  sliceSizes := ![1, 2048]
  wf := gather_S4096x2048_S1024x1_S1024x2048_1_0_n_n_0_1_12048_wf
def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1024x8192_S8192x2048_S1024x2048_1_0_0_1_n_n : DotDims S1024x8192 S8192x2048 S1024x2048 where
  lhsContracting := [1]
  rhsContracting := [0]
  lhsNonContracting := [0]
  rhsNonContracting := [1]
  lhsBatch := []
  rhsBatch := []
  wf := dot_S1024x8192_S8192x2048_S1024x2048_1_0_0_1_n_n_wf

class Facts : Prop extends Facts₀ where

variable [Facts]
-- ==== Proof.KRun.lean ====
/-
  The idealized kernel's run with its result array named.

  @main is the row gather on the host, then two grid regions.  The generated frame run ends with every unscoped buffer at
  the last boundary's contents; here the same run is read once more keeping, besides the six argument arrays, the result
  array: it ends at the contents the second region leaves in it.
-/
import proofs.«129546_g49443663512208_cont_8to1c4_717_9_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the last
    boundary gives it, and the six argument arrays end as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Out

end
-- ==== Proof.Spec.lean ====
/-
  What the kernel computes, as functions of whole arrays of extended reals.

  With x the gathered rows [1024, 2048], W1 and W3 [8192, 2048], W2 [2048, 8192] and rw the routing weights [1024, 1]:
  the gate at token b and hidden unit h is  (h1 · σ(h1)) · h3 · rw[b],  h1 = Σ_k x[b,k] W1[h,k],  h3 = Σ_k x[b,k] W3[h,k],
  σ the logistic function; the result at token b and model column f is  Σ_h gate[b,h] · W2[f,h].
-/
import Idealize.ShloMosaic.PureOps.Ideal
import Idealize.ShloMosaic.Lib.ValueIdx

noncomputable section

namespace Cert.Spec

open Idealize.ShloMosaic Idealize.ShloMosaic.ValueIdx
open scoped BigOperators

abbrev S1024x1 : Shape := ⟨2, ![1024, 1]⟩
abbrev S8192x2048 : Shape := ⟨2, ![8192, 2048]⟩
abbrev S2048x8192 : Shape := ⟨2, ![2048, 8192]⟩
abbrev S1024x2048 : Shape := ⟨2, ![1024, 2048]⟩
abbrev S1024x8192 : Shape := ⟨2, ![1024, 8192]⟩

/-- The inner product of row `b` of `x` with row `h` of `W`. -/
def proj (x : S1024x2048.Idx → EReal) (W : S8192x2048.Idx → EReal) (b : Fin 1024) (h : Fin 8192) : EReal :=
  ∑ k : Fin 2048, x (ix2 b k) * W (ix2 h k)

/-- The gated activation, the routing weight folded in. -/
def gate (x : S1024x2048.Idx → EReal) (W1 W3 : S8192x2048.Idx → EReal) (rw : S1024x1.Idx → EReal) (b : Fin 1024) (h : Fin 8192) :
    EReal :=
  proj x W1 b h * Ideal.logistic (proj x W1 b h) * proj x W3 b h * rw (ix2 b 0)

/-- The gate as a [1024, 8192] array. -/
def gateArr (x : S1024x2048.Idx → EReal) (W1 W3 : S8192x2048.Idx → EReal) (rw : S1024x1.Idx → EReal) : S1024x8192.Idx → EReal :=
  fun i => gate x W1 W3 rw (i 0) (i 1)

/-- The down projection of a [1024, 8192] array `g`: entry (b, f) is the inner product of row b of `g` with row f of W2. -/
def downArr (g : S1024x8192.Idx → EReal) (W2 : S2048x8192.Idx → EReal) : S1024x2048.Idx → EReal :=
  fun i => ∑ h : Fin 8192, g (ix2 (i 0) h) * W2 (ix2 (i 1) h)

end Cert.Spec

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.KGate.lean ====
/-
  The first region (the gate), read as one array.

  The grid has sixteen points; point t loads the whole gathered-rows array, rows [512 t, 512 t + 512) of W1 and of W3, the
  whole routing-weight column, and writes columns [512 t, 512 t + 512) of the gate array.  At Ideal the body's two
  products into a zero accumulator are sums over the 2048 model coordinates, the format changes are the identity, and the
  routing weight's lane broadcast reads the row's weight: entry (p, q) of the block point t writes is the gate at token p
  and hidden unit 512 t + q.  The sixteen column blocks tile the array, so after the region the array is `gateArr`.
-/
import proofs.«129546_g49443663512208_cont_8to1c4_717_9_alg».proof.Proof.Gen.KernelIdeal.Frame
import proofs.«129546_g49443663512208_cont_8to1c4_717_9_alg».proof.Proof.Spec
import proofs.«129546_g49443663512208_cont_8to1c4_717_9_alg».proof.Proof.LibDot
import Idealize.ShloMosaic.Lib.ValueIdx
import Idealize.ShloMosaic.Lib.Pipeline.Value
import Idealize.ShloMosaic.PureOps.Ideal.Laws

set_option maxRecDepth 16384

noncomputable section

namespace Cert.KernelIdeal.Gate

open Cert.KernelIdeal Cert.KernelIdeal.Gen Cert.Spec Cert.LibDot
open Idealize.ShloMosaic Idealize.ShloMosaic.TcCoe Idealize.ShloMosaic.ValueIdx Idealize.SL.Sem
open Idealize.ShloMosaic.Pipeline (Dat Cfg Window)
open scoped BigOperators

local notation "D0" => dot_S1024x2048_S512x2048_S1024x512_1_1_0_0_n_n

/-- The body's product of a [1024, 2048] by a [512, 2048] operand, both contracted on their last axis, into a zero
    accumulator: entry (p, q) is the inner product of row p with row q. -/
theorem product_apply (A : FVec Ideal S1024x2048 .bf16) (B : FVec Ideal S512x2048 .bf16) (p : Fin 1024) (q : Fin 512) :
    matmul (F := Ideal) D0 none A B (constant S1024x512 .f32 0x00000000#32) (ix2 p q) = ∑ k : Fin 2048, A (ix2 p k) * B (ix2 q k) := by
  refine (Ideal.matmul_constant_zero_apply D0 none A B (ix2 p q)).trans ?_
  exact contr_sum D0 2048 rfl rfl A B (ix2 p q) (fun k => ix2 p k) (fun k => ix2 q k)
    (fun k r hk => funext fun a => Fin.ext (by
      match a with
      | ⟨0, _⟩ => rfl
      | ⟨1, _⟩ => exact (DotDims.lhsIdx_val_of_single D0 rfl (ix2 p q) k).trans hk))
    (fun k r hk => funext fun a => Fin.ext (by
      match a with
      | ⟨0, _⟩ => rfl
      | ⟨1, _⟩ => exact (DotDims.rhsIdx_val_of_single D0 rfl (ix2 p q) k).trans hk))

/-- The routing-weight column broadcast along the lanes reads the row's weight. -/
theorem lanes_apply (x3 : Vec Ideal S1024x1 .f32) (p : Fin 1024) (q : Fin 512) :
    broadcastTo S1024x512 x3 broadcasts_S1024x1_S1024x512 (ix2 p q) = x3 (ix2 p 0) :=
  broadcastTo_apply x3 broadcasts_S1024x1_S1024x512 (ix2 p q) (ix2 p 0) fun a => by
    match a with
    | ⟨0, _⟩ => show p.val = if (1024 : ℕ) = 1 then 0 else p.val; rw [if_neg (by decide)]
    | ⟨1, _⟩ => rfl

/-- The body's product into the zero accumulator. -/
abbrev prod (A : FVec Ideal S1024x2048 .bf16) (B : FVec Ideal S512x2048 .bf16) : FVec Ideal S1024x512 .f32 :=
  matmul (F := Ideal) D0 none A B (constant S1024x512 .f32 0x00000000#32)

/-- The body's arithmetic as one pointwise expression of its two products and the broadcast weight. -/
theorem payload_eq (x0 : Vec Ideal S1024x2048 .f32) (x1 x2 : Vec Ideal S512x2048 .f32) (x3 : Vec Ideal S1024x1 .f32) :
    k0_pay1 x0 x1 x2 x3 = fun j =>
      prod x0 x1 j * Ideal.logistic (prod x0 x1 j) * prod x0 x2 j * broadcastTo S1024x512 x3 broadcasts_S1024x1_S1024x512 j := by
  unfold k0_pay1
  simp only [shapeCast_self]
  rfl

/-- The body's payload at entry (p, q): the gate of row p of the first block against rows q of the two weight blocks. -/
theorem payload_apply (x0 : Vec Ideal S1024x2048 .f32) (x1 x2 : Vec Ideal S512x2048 .f32) (x3 : Vec Ideal S1024x1 .f32)
    (p : Fin 1024) (q : Fin 512) :
    k0_pay1 x0 x1 x2 x3 (ix2 p q)
      = (∑ k : Fin 2048, x0 (ix2 p k) * x1 (ix2 q k)) * Ideal.logistic (∑ k : Fin 2048, x0 (ix2 p k) * x1 (ix2 q k))
        * (∑ k : Fin 2048, x0 (ix2 p k) * x2 (ix2 q k)) * x3 (ix2 p 0) := by
  rw [payload_eq]
  show prod x0 x1 (ix2 p q) * Ideal.logistic (prod x0 x1 (ix2 p q)) * prod x0 x2 (ix2 p q)
    * broadcastTo S1024x512 x3 broadcasts_S1024x1_S1024x512 (ix2 p q) = _
  rw [show prod x0 x1 (ix2 p q) = _ from product_apply x0 x1 p q, show prod x0 x2 (ix2 p q) = _ from product_apply x0 x2 p q,
    lanes_apply]

theorem hz : (![0, 0] : Fin 2 → Nat) = fun _ => 0 := funext fun a => by fin_cases a <;> rfl

/-- The printed index maps over the grid: the three whole-array windows stay at block (0, 0), the two weight windows and
    the output move together along one axis, point t at block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

variable (V : (c : Dev nD) → (b : Ref sig .tc) → Buf (Elt Ideal) ((c : Thread nD τ).loc b))

/-- The gate array of the region-entry contents. -/
abbrev G (c : Dev nD) : S1024x8192.Idx → EReal :=
  gateArr (V c main_v0) (V c main_arg3) (V c main_arg5) (V c main_arg2)

/-- WHAT POINT t WRITES BACK is block t of the gate array of the arrays as the region finds them. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S1024x2048) hz, View.ld_unit_zero (S := S512x2048) hz, View.ld_unit_zero (S := S1024x1) hz]
  obtain ⟨e00, e01, e10, e11, e20, e21, e30, e31, e40, e41⟩ := idx_facts t
  funext j
  obtain ⟨p, q, rfl⟩ : ∃ (p : Fin 1024) (q : Fin 512), j = ix2 p q := ⟨j 0, j 1, eq_ix2 j⟩
  show k0_pay1 (iblk0 V c 0 t) (iblk0 V c 1 t) (iblk0 V c 2 t) (iblk0 V c 3 t) (ix2 p q)
    = G V c (((cfg0.win 4).blk t).view.emb (ix2 p q))
  refine (payload_apply (iblk0 V c 0 t) (iblk0 V c 1 t) (iblk0 V c 2 t) (iblk0 V c 3 t) p q).trans ?_
  have hx : ∀ k : Fin 2048, iblk0 V c 0 t (ix2 p k)
      = V c main_v0 (ix2 (((cfg0.win 4).blk t).view.emb (ix2 p q) 0) k) := fun k => by
    show V c main_v0 (((cfg0.win 0).blk t).view.emb (ix2 p k)) = _
    refine congrArg (V c main_v0) (funext fun a => Fin.ext ?_)
    match a with
    | ⟨0, _⟩ => show win0_0.index t (0 : Fin 2) * 1024 + 1 * p.val = win0_4.index t (0 : Fin 2) * 1024 + 1 * p.val; omega
    | ⟨1, _⟩ => show win0_0.index t (1 : Fin 2) * 2048 + 1 * k.val = k.val; omega
  have hw1 : ∀ k : Fin 2048, iblk0 V c 1 t (ix2 q k)
      = V c main_arg3 (ix2 (((cfg0.win 4).blk t).view.emb (ix2 p q) 1) k) := fun k => by
    show V c main_arg3 (((cfg0.win 1).blk t).view.emb (ix2 q k)) = _
    refine congrArg (V c main_arg3) (funext fun a => Fin.ext ?_)
    match a with
    | ⟨0, _⟩ => show win0_1.index t (0 : Fin 2) * 512 + 1 * q.val = win0_4.index t (1 : Fin 2) * 512 + 1 * q.val; omega
    | ⟨1, _⟩ => show win0_1.index t (1 : Fin 2) * 2048 + 1 * k.val = k.val; omega
  have hw3 : ∀ k : Fin 2048, iblk0 V c 2 t (ix2 q k)
      = V c main_arg5 (ix2 (((cfg0.win 4).blk t).view.emb (ix2 p q) 1) k) := fun k => by
    show V c main_arg5 (((cfg0.win 2).blk t).view.emb (ix2 q k)) = _
    refine congrArg (V c main_arg5) (funext fun a => Fin.ext ?_)
    match a with
    | ⟨0, _⟩ => show win0_2.index t (0 : Fin 2) * 512 + 1 * q.val = win0_4.index t (1 : Fin 2) * 512 + 1 * q.val; omega
    | ⟨1, _⟩ => show win0_2.index t (1 : Fin 2) * 2048 + 1 * k.val = k.val; omega
  have hr : iblk0 V c 3 t (ix2 p 0) = V c main_arg2 (ix2 (((cfg0.win 4).blk t).view.emb (ix2 p q) 0) 0) := by
    show V c main_arg2 (((cfg0.win 3).blk t).view.emb (ix2 p 0)) = _
    refine congrArg (V c main_arg2) (funext fun a => Fin.ext ?_)
    match a with
    | ⟨0, _⟩ => show win0_3.index t (0 : Fin 2) * 1024 + 1 * p.val = win0_4.index t (0 : Fin 2) * 1024 + 1 * p.val; omega
    | ⟨1, _⟩ => show win0_3.index t (1 : Fin 2) * 1 + 1 * 0 = 0; omega
  simp only [hx, hw1, hw3, hr]
  rfl

/-- An index of the gate array is in point t's block iff each coordinate is in the block's range on its axis. -/
theorem mem_blk (t : Fin cfg0.N) (i : S1024x8192.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- The sixteen column blocks cover the gate array: column j is in block j / 512. -/
theorem cover (i : S1024x8192.Idx) : ∃ t : Fin cfg0.N, (cfg0.win 4).flush t = true ∧ i ∈ ((cfg0.win 4).blk t).view.set := by
  have h0 : (i 0).val < 1024 := idx2_lt0 i
  have h1 : (i 1).val < 8192 := idx2_lt1 i
  have hN : cfg0.N = 16 := N_0
  let t : Fin cfg0.N := ⟨(i 1).val / 512, by rw [hN]; omega⟩
  have ht : t.val = (i 1).val / 512 := rfl
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE GATE ARRAY after the region: `gateArr` of the arrays as the region finds them. -/
theorem final (c : Dev nD) : (dat0 V c).arrAt 4 cfg0.N = G V c :=
  (dat0 V c).arrAt_eq_of_cover 4 (G V c) (fun t _ => flushed_eq V c t) cover

end Cert.KernelIdeal.Gate

end
-- ==== Proof.KDown.lean ====
/-
  The second region (the down projection), read as one array.

  The grid has eight points; point t loads the whole gate array, rows [256 t, 256 t + 256) of W2, and writes columns
  [256 t, 256 t + 256) of the result.  At Ideal the body's product into a zero accumulator is the sum over the 8192 hidden
  units: entry (p, q) of the block point t writes is the inner product of row p of the gate array with row 256 t + q of W2.
  The eight column blocks tile the result, so after the region it is `downArr`.
-/
import proofs.«129546_g49443663512208_cont_8to1c4_717_9_alg».proof.Proof.Gen.KernelIdeal.Frame
import proofs.«129546_g49443663512208_cont_8to1c4_717_9_alg».proof.Proof.Spec
import proofs.«129546_g49443663512208_cont_8to1c4_717_9_alg».proof.Proof.LibDot
import Idealize.ShloMosaic.Lib.ValueIdx
import Idealize.ShloMosaic.Lib.Pipeline.Value
import Idealize.ShloMosaic.PureOps.Ideal.Laws

set_option maxRecDepth 16384

noncomputable section

namespace Cert.KernelIdeal.Down

open Cert.KernelIdeal Cert.KernelIdeal.Gen Cert.Spec Cert.LibDot
open Idealize.ShloMosaic Idealize.ShloMosaic.TcCoe Idealize.ShloMosaic.ValueIdx Idealize.SL.Sem
open Idealize.ShloMosaic.Pipeline (Dat Cfg Window)
open scoped BigOperators

local notation "D1" => dot_S1024x8192_S256x8192_S1024x256_1_1_0_0_n_n

/-- The body's product of a [1024, 8192] by a [256, 8192] operand, both contracted on their last axis, into a zero
    accumulator: entry (p, q) is the inner product of row p with row q. -/
theorem product_apply (A : FVec Ideal S1024x8192 .bf16) (B : FVec Ideal S256x8192 .bf16) (p : Fin 1024) (q : Fin 256) :
    matmul (F := Ideal) D1 none A B (constant S1024x256 .f32 0x00000000#32) (ix2 p q) = ∑ h : Fin 8192, A (ix2 p h) * B (ix2 q h) := by
  refine (Ideal.matmul_constant_zero_apply D1 none A B (ix2 p q)).trans ?_
  exact contr_sum D1 8192 rfl rfl A B (ix2 p q) (fun h => ix2 p h) (fun h => ix2 q h)
    (fun k r hk => funext fun a => Fin.ext (by
      match a with
      | ⟨0, _⟩ => rfl
      | ⟨1, _⟩ => exact (DotDims.lhsIdx_val_of_single D1 rfl (ix2 p q) k).trans hk))
    (fun k r hk => funext fun a => Fin.ext (by
      match a with
      | ⟨0, _⟩ => rfl
      | ⟨1, _⟩ => exact (DotDims.rhsIdx_val_of_single D1 rfl (ix2 p q) k).trans hk))

/-- The body's product into the zero accumulator. -/
abbrev prod (A : FVec Ideal S1024x8192 .bf16) (B : FVec Ideal S256x8192 .bf16) : FVec Ideal S1024x256 .f32 :=
  matmul (F := Ideal) D1 none A B (constant S1024x256 .f32 0x00000000#32)

/-- The body's arithmetic: the product of the gate block with the weight block. -/
theorem payload_eq (w : Vec Ideal S256x8192 .f32) (g : Vec Ideal S1024x8192 .bf16) :
    k1_pay1 w g = prod g w := by
  unfold k1_pay1
  simp only [shapeCast_self]
  rfl

/-- The body's payload at entry (p, q). -/
theorem payload_apply (w : Vec Ideal S256x8192 .f32) (g : Vec Ideal S1024x8192 .bf16) (p : Fin 1024) (q : Fin 256) :
    k1_pay1 w g (ix2 p q) = ∑ h : Fin 8192, g (ix2 p h) * w (ix2 q h) := by
  rw [payload_eq]
  exact product_apply g w p q

theorem hz : (![0, 0] : Fin 2 → Nat) = fun _ => 0 := funext fun a => by fin_cases a <;> rfl

/-- The printed index maps over the grid: the gate window stays at block (0, 0), the weight window and the output move
    together, point t at block t. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- The down projection of the region-entry contents. -/
abbrev G (c : Dev nD) : S1024x2048.Idx → EReal := downArr (V c main_v1) (V c main_arg4)

/-- WHAT POINT t WRITES BACK is block t of the down projection of the arrays as the region finds them. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S1024x8192) hz, View.ld_unit_zero (S := S256x8192) hz]
  obtain ⟨e00, e01, e10, e11, e20, e21⟩ := idx_facts t
  funext j
  obtain ⟨p, q, rfl⟩ : ∃ (p : Fin 1024) (q : Fin 256), j = ix2 p q := ⟨j 0, j 1, eq_ix2 j⟩
  show k1_pay1 (iblk1 V c 1 t) (iblk1 V c 0 t) (ix2 p q) = G V c (((cfg1.win 2).blk t).view.emb (ix2 p q))
  refine (payload_apply (iblk1 V c 1 t) (iblk1 V c 0 t) p q).trans ?_
  have hg : ∀ h : Fin 8192, iblk1 V c 0 t (ix2 p h)
      = V c main_v1 (ix2 (((cfg1.win 2).blk t).view.emb (ix2 p q) 0) h) := fun h => by
    show V c main_v1 (((cfg1.win 0).blk t).view.emb (ix2 p h)) = _
    refine congrArg (V c main_v1) (funext fun a => Fin.ext ?_)
    match a with
    | ⟨0, _⟩ => show win1_0.index t (0 : Fin 2) * 1024 + 1 * p.val = win1_2.index t (0 : Fin 2) * 1024 + 1 * p.val; omega
    | ⟨1, _⟩ => show win1_0.index t (1 : Fin 2) * 8192 + 1 * h.val = h.val; omega
  have hw : ∀ h : Fin 8192, iblk1 V c 1 t (ix2 q h)
      = V c main_arg4 (ix2 (((cfg1.win 2).blk t).view.emb (ix2 p q) 1) h) := fun h => by
    show V c main_arg4 (((cfg1.win 1).blk t).view.emb (ix2 q h)) = _
    refine congrArg (V c main_arg4) (funext fun a => Fin.ext ?_)
    match a with
    | ⟨0, _⟩ => show win1_1.index t (0 : Fin 2) * 256 + 1 * q.val = win1_2.index t (1 : Fin 2) * 256 + 1 * q.val; omega
    | ⟨1, _⟩ => show win1_1.index t (1 : Fin 2) * 8192 + 1 * h.val = h.val; omega
  simp only [hg, hw]
  rfl

/-- An index of the result is in point t's block iff each coordinate is in the block's range on its axis. -/
theorem mem_blk (t : Fin cfg1.N) (i : S1024x2048.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v2).slice (win1_2.rect t)).set ↔ _
  rw [View.set_slice_whole, Rect.mem_set_unit]
  exact Iff.rfl

/-- The eight column blocks cover the result: column j is in block j / 256. -/
theorem cover (i : S1024x2048.Idx) : ∃ t : Fin cfg1.N, (cfg1.win 2).flush t = true ∧ i ∈ ((cfg1.win 2).blk t).view.set := by
  have h0 : (i 0).val < 1024 := idx2_lt0 i
  have h1 : (i 1).val < 2048 := idx2_lt1 i
  have hN : cfg1.N = 8 := N_1
  let t : Fin cfg1.N := ⟨(i 1).val / 256, by rw [hN]; omega⟩
  have ht : t.val = (i 1).val / 256 := rfl
  obtain ⟨e00, e01, e10, e11, e20, e21⟩ := idx_facts t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

/-- THE RESULT after the region: `downArr` of the arrays as the region finds them. -/
theorem final (c : Dev nD) : (dat1 V c).arrAt 2 cfg1.N = G V c :=
  (dat1 V c).arrAt_eq_of_cover 2 (G V c) (fun t _ => flushed_eq V c t) cover

end Cert.KernelIdeal.Down

end
-- ==== Proof.Algebra.lean ====
/-
  Extended reals that are real numbers, and the one law of this certificate.

  Every value the two programs compute from finite inputs is a real number: products and finite sums of reals are real,
  and the logistic function 1 / (1 + e^(-r)) of a real is real because its denominator is positive.  On real numbers a
  common factor leaves a finite sum: the sum over h of (g h · c) · w h is c times the sum over h of g h · w h.  (On the
  extended reals this fails where an infinity meets a negative factor, which is why the entries have to be real.)
-/
import Idealize.ShloMosaic.PureOps.Ideal

noncomputable section

namespace Cert.Algebra

open Idealize.ShloMosaic
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_zero : IsReal 0 := ⟨0, EReal.coe_zero.symm⟩

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i, IsReal (f i)) : IsReal (∑ i ∈ s, f i) := by
  choose f' hf' using h
  obtain rfl : f = fun i => ((f' i : ℝ) : EReal) := funext hf'
  exact ⟨_, coe_sum s f'⟩

/-- The logistic function of a real number is a real number. -/
theorem isReal_logistic {x : EReal} (hx : IsReal x) : IsReal (Ideal.logistic x) := by
  obtain ⟨r, rfl⟩ := hx
  have hpos : (1 + Real.exp (-r)) ≠ 0 := by positivity
  refine ⟨1 / (1 + Real.exp (-r)), ?_⟩
  unfold Ideal.logistic
  rw [← EReal.coe_neg, Ideal.exp_coe, ← EReal.coe_one, ← EReal.coe_add, Ideal.div_coe hpos, ← EReal.coe_mul, one_mul]

/-- THE LAW: on real numbers a common factor inside a finite sum of products comes out of the sum. -/
theorem scale_sum {n : ℕ} (g w : Fin n → EReal) (c : EReal) (hg : ∀ h, IsReal (g h)) (hw : ∀ h, IsReal (w h))
    (hc : IsReal c) : ∑ h, (g h * c) * w h = c * ∑ h, g h * w h := by
  obtain ⟨c', rfl⟩ := hc
  choose g' hg' using hg
  choose w' hw' using hw
  obtain rfl : g = fun h => ((g' h : ℝ) : EReal) := funext hg'
  obtain rfl : w = fun h => ((w' h : ℝ) : EReal) := funext hw'
  simp only [← EReal.coe_mul]
  rw [coe_sum, coe_sum, ← EReal.coe_mul, Finset.mul_sum]
  exact congrArg _ (Finset.sum_congr rfl fun h _ => by ring)

end Cert.Algebra

end
-- ==== Proof.TakeRows.lean ====
/-
  The gathered token rows: row b of the result is row idx[b] of the table, an index below zero counted from the end,
  and a row whose index still falls outside the table filled with the not-a-number word.

  Both programs begin with this same chain of host operations, so it is stated once as one function `takeRows` of the
  table and the indices.  What the certificate needs of it is that it holds real numbers: when the table holds real
  numbers and every index lies in [-4096, 4096), the wrapped index lies in [0, 4095], the validity mask is 1 at every
  row, the select keeps the gathered element, and a gathered element is an element of the table.
-/
import Idealize.ShloMosaic.PureOps.Ideal
import Idealize.ShloMosaic.PureOps.Reduce
import proofs.«129546_g49443663512208_cont_8to1c4_717_9_alg».proof.Proof.Algebra

noncomputable section

namespace Cert.TakeRows

open Idealize.ShloMosaic Cert.Algebra

abbrev S4096x2048 : Shape := ⟨2, ![4096, 2048]⟩
abbrev S1024 : Shape := ⟨1, ![1024]⟩
abbrev S1024x1 : Shape := ⟨2, ![1024, 1]⟩
abbrev S_ : Shape := ⟨0, ![]⟩
abbrev S1 : Shape := ⟨1, ![1]⟩
abbrev S1x1 : Shape := ⟨2, ![1, 1]⟩
abbrev S1024x2048 : Shape := ⟨2, ![1024, 2048]⟩

/-- The wrapped index: an index below zero counted from the end of the 4096 rows. -/
def wrapped (b0 : S_.BroadcastsInDim S1024 (![] : Fin 0 → Fin S1024.rank)) (idx : IVec S1024 32) : IVec S1024 32 :=
  select (cmpi .slt idx (broadcastInDim S1024 ![] b0 (constantI S_ 32 0#32)))
    (addi idx (broadcastInDim S1024 ![] b0 (constantI S_ 32 4096#32))) idx

/-- The validity bit of each wrapped index: at least 0 and at most 4095. -/
def inRange (b2 : S_.BroadcastsInDim S1024x1 (![] : Fin 0 → Fin S1024x1.rank))
    (b3 : S1.BroadcastsInDim S1x1 (![1] : Fin 1 → Fin S1x1.rank))
    (b4 : S1x1.BroadcastsInDim S1024x1 (![0, 1] : Fin 2 → Fin S1024x1.rank)) (v5 : IVec S1024x1 32) : IVec S1024x1 1 :=
  andi (cmpi .sge v5 (broadcastInDim S1024x1 ![] b2 (constantI S_ 32 0#32)))
    (cmpi .sle v5 (broadcastInDim S1024x1 ![0, 1] b4 (broadcastInDim S1x1 ![1] b3 (constantI S1 32 4095#32))))

section
variable {F : FTy → Type} [FloatOps F]

/-- The gathered rows, as the host operations compute them. -/
def takeRows (b0 : S_.BroadcastsInDim S1024 (![] : Fin 0 → Fin S1024.rank))
    (b1 : S1024.BroadcastsInDim S1024x1 (![0] : Fin 1 → Fin S1024x1.rank))
    (b2 : S_.BroadcastsInDim S1024x1 (![] : Fin 0 → Fin S1024x1.rank))
    (b3 : S1.BroadcastsInDim S1x1 (![1] : Fin 1 → Fin S1x1.rank))
    (b4 : S1x1.BroadcastsInDim S1024x1 (![0, 1] : Fin 2 → Fin S1024x1.rank))
    (r0 : S1024x1.ReducesTo [1] S1024) (hS : 0 < S_.numel)
    (b5 : S1024.BroadcastsInDim S1024x2048 (![0] : Fin 1 → Fin S1024x2048.rank))
    (b6 : S_.BroadcastsInDim S1024x2048 (![] : Fin 0 → Fin S1024x2048.rank))
    (d : GatherDims S4096x2048 S1024x1 S1024x2048)
    (hs : FVec F S4096x2048 .f32) (idx : IVec S1024 32) : FVec F S1024x2048 .f32 :=
  select
    (broadcastInDim S1024x2048 ![0] b5
      (Host.reduce IntOp.andi (inRange b2 b3 b4 (broadcastInDim S1024x1 ![0] b1 (wrapped b0 idx))) (constantI S_ 1 1#1) r0 hS))
    (Host.gather d hs (broadcastInDim S1024x1 ![0] b1 (wrapped b0 idx)))
    (broadcastInDim S1024x2048 ![] b6 (constant S_ .f32 0x7FC00000#32))

end

/-- A left fold of `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- One index word: in [-4096, 4096) as a signed integer, its wrapped value is at least 0 and at most 4095. -/
theorem wrapped_word (v : BitVec 32) (h1 : (-4096 : Int) ≤ v.toInt) (h2 : v.toInt < 4096) :
    IntOp.andi (IntOp.cmpi .sge (Scalar.select (IntOp.cmpi .slt v 0#32) (IntOp.addi v 4096#32) v) 0#32)
      (IntOp.cmpi .sle (Scalar.select (IntOp.cmpi .slt v 0#32) (IntOp.addi v 4096#32) v) 4095#32) = 1#1 := by
  have key : ∀ u : BitVec 32, (0 : Int) ≤ u.toInt → u.toInt ≤ 4095 →
      IntOp.andi (IntOp.cmpi .sge u 0#32) (IntOp.cmpi .sle u 4095#32) = 1#1 := by
    intro u hu0 hu1
    have e0 : (0#32 : BitVec 32).sle u = true := BitVec.sle_iff_toInt_le.2 (by simpa using hu0)
    have e1 : u.sle (4095#32 : BitVec 32) = true := BitVec.sle_iff_toInt_le.2 (by
      have : (4095#32 : BitVec 32).toInt = 4095 := by decide
      rw [this]; exact hu1)
    show IntOp.andi (BitVec.ofBool ((0#32 : BitVec 32).sle u)) (BitVec.ofBool (u.sle (4095#32 : BitVec 32))) = 1#1
    rw [e0, e1]; rfl
  by_cases hneg : v.toInt < 0
  · have e : v.slt 0#32 = true := BitVec.slt_iff_toInt_lt.2 (by simpa using hneg)
    have hs : Scalar.select (IntOp.cmpi .slt v 0#32) (IntOp.addi v 4096#32) v = v + 4096#32 := by
      show Scalar.select (BitVec.ofBool (v.slt 0#32)) (v + 4096#32) v = _
      rw [e]; rfl
    rw [hs]
    have ht : (v + 4096#32).toInt = v.toInt + 4096 := by
      rw [BitVec.toInt_add]
      have : (4096#32 : BitVec 32).toInt = 4096 := by decide
      rw [this]
      exact Int.bmod_eq_of_le_mul_two (by omega) (by omega)
    exact key _ (by omega) (by omega)
  · have e : v.slt 0#32 = false := by
      rw [Bool.eq_false_iff]; intro h; exact hneg (by simpa using BitVec.slt_iff_toInt_lt.1 h)
    have hs : Scalar.select (IntOp.cmpi .slt v 0#32) (IntOp.addi v 4096#32) v = v := by
      show Scalar.select (BitVec.ofBool (v.slt 0#32)) (v + 4096#32) v = _
      rw [e]; rfl
    rw [hs]
    exact key _ (by omega) (by omega)

/-- With a table of real numbers and every index in [-4096, 4096), the gathered rows hold real numbers. -/
theorem takeRows_real (b0 : S_.BroadcastsInDim S1024 (![] : Fin 0 → Fin S1024.rank))
    (b1 : S1024.BroadcastsInDim S1024x1 (![0] : Fin 1 → Fin S1024x1.rank))
    (b2 : S_.BroadcastsInDim S1024x1 (![] : Fin 0 → Fin S1024x1.rank))
    (b3 : S1.BroadcastsInDim S1x1 (![1] : Fin 1 → Fin S1x1.rank))
    (b4 : S1x1.BroadcastsInDim S1024x1 (![0, 1] : Fin 2 → Fin S1024x1.rank))
    (r0 : S1024x1.ReducesTo [1] S1024) (hS : 0 < S_.numel)
    (b5 : S1024.BroadcastsInDim S1024x2048 (![0] : Fin 1 → Fin S1024x2048.rank))
    (b6 : S_.BroadcastsInDim S1024x2048 (![] : Fin 0 → Fin S1024x2048.rank))
    (d : GatherDims S4096x2048 S1024x1 S1024x2048)
    (hs : FVec Ideal S4096x2048 .f32) (idx : IVec S1024 32) (hhs : ∀ i, IsReal (hs i))
    (hidx : ∀ k, (-4096 : Int) ≤ (idx k).toInt ∧ (idx k).toInt < 4096) (i : S1024x2048.Idx) :
    IsReal (takeRows (F := Ideal) b0 b1 b2 b3 b4 r0 hS b5 b6 d hs idx i) := by
  have hv11 : ∀ y, inRange b2 b3 b4 (broadcastInDim S1024x1 ![0] b1 (wrapped b0 idx)) y = 1#1 := fun y =>
    wrapped_word _ (hidx _).1 (hidx _).2
  have hmask : ∀ j, Host.reduce IntOp.andi (inRange b2 b3 b4 (broadcastInDim S1024x1 ![0] b1 (wrapped b0 idx)))
      (constantI S_ 1 1#1) r0 hS j = 1#1 := fun j =>
    foldl_andi_ones (fun n => inRange b2 b3 b4 (broadcastInDim S1024x1 ![0] b1 (wrapped b0 idx)) (S1024x1.rowMajor.symm n))
      (fun n => hv11 _) _
  unfold takeRows
  show IsReal (Scalar.select _ _ _)
  have hc : broadcastInDim S1024x2048 ![0] b5
      (Host.reduce IntOp.andi (inRange b2 b3 b4 (broadcastInDim S1024x1 ![0] b1 (wrapped b0 idx))) (constantI S_ 1 1#1) r0 hS) i
      = 1#1 := hmask _
  rw [hc]
  unfold Scalar.select
  rw [if_pos (by decide : (1#1 : BitVec 1) = 1)]
  exact hhs _

end Cert.TakeRows

end
-- ==== Proof.KValue.lean ====
/-
  The idealized kernel's result array as one function of the six argument arrays.

  The host operations before the first region leave the gathered rows in the first region's first window and touch no
  argument; the first region leaves the gate array in its output and nothing else changed; the second region reads that
  array and W2 and leaves the down projection in the result.  Chaining the two regions' whole-array posts through the
  boundary contents gives the result as `downArr (gateArr rows W1 W3 rw) W2`.
-/
import proofs.«129546_g49443663512208_cont_8to1c4_717_9_alg».proof.Proof.KGate
import proofs.«129546_g49443663512208_cont_8to1c4_717_9_alg».proof.Proof.KDown
import proofs.«129546_g49443663512208_cont_8to1c4_717_9_alg».proof.Proof.TakeRows
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.ValueIdx Idealize.SL.Sem Idealize.ShloMosaic.StableHlo

/-- The gathered rows, with this program's shape facts. -/
abbrev rows {F : FTy → Type} [FloatOps F] (hs : FVec F S4096x2048 .f32) (idx : IVec S1024 32) : FVec F S1024x2048 .f32 :=
  Cert.TakeRows.takeRows bcast_S_S1024 bcast_S1024_S1024x1_0 bcast_S_S1024x1 bcast_S1_S1x1_1 bcast_S1x1_S1024x1_0_1
    reducesTo_S1024x1_S1024_d1 h_S_ bcast_S1024_S1024x2048_0 bcast_S_S1024x2048
    gather_S4096x2048_S1024x1_S1024x2048_1_0_n_n_0_1_12048 hs idx

variable (m : (ℓ : Loc nD τ sig) → Buf (Elt Ideal) ℓ) (ρ : Dev nD → PrngReg)

/-- The first region finds the gathered rows in its first window's array. -/
theorem entry_rows (c : Dev nD) :
    (V1 m ρ c main_v0 : S1024x2048.Idx → EReal)
      = rows (F := Ideal) (m ((c.tc : Thread nD τ).loc main_arg0)) (m ((c.tc : Thread nD τ).loc main_arg1)) := by
  dsimp only [V1, W1, hostOps0]
  after_results_simp
  rfl

/-- An input window's array is unchanged by its region; no later region or host operation writes an argument. -/
theorem entry_arg2 (c : Dev nD) : V1 m ρ c main_arg2 = m ((c.tc : Thread nD τ).loc main_arg2) :=
  ((W2_arr m ρ c 3).trans (((dat0 (V1 m ρ) c).arrAt_in 3 rfl _).trans (A_eq0 (V1 m ρ) c 3))).symm.trans
    ((W3_of_ne m ρ c main_arg2 (by decide)).symm.trans (W3_main_arg2 m ρ c))
theorem entry_arg3 (c : Dev nD) : V1 m ρ c main_arg3 = m ((c.tc : Thread nD τ).loc main_arg3) :=
  ((W2_arr m ρ c 1).trans (((dat0 (V1 m ρ) c).arrAt_in 1 rfl _).trans (A_eq0 (V1 m ρ) c 1))).symm.trans
    ((W3_of_ne m ρ c main_arg3 (by decide)).symm.trans (W3_main_arg3 m ρ c))
theorem entry_arg5 (c : Dev nD) : V1 m ρ c main_arg5 = m ((c.tc : Thread nD τ).loc main_arg5) :=
  ((W2_arr m ρ c 2).trans (((dat0 (V1 m ρ) c).arrAt_in 2 rfl _).trans (A_eq0 (V1 m ρ) c 2))).symm.trans
    ((W3_of_ne m ρ c main_arg5 (by decide)).symm.trans (W3_main_arg5 m ρ c))
theorem mid_arg4 (c : Dev nD) : V2 m ρ c main_arg4 = m ((c.tc : Thread nD τ).loc main_arg4) :=
  ((W3_arr m ρ c 1).trans (((dat1 (V2 m ρ) c).arrAt_in 1 rfl _).trans (A_eq1 (V2 m ρ) c 1))).symm.trans (W3_main_arg4 m ρ c)

/-- Between the regions the gate array holds `gateArr` of the gathered rows and the argument arrays. -/
theorem mid_gate (c : Dev nD) :
    (V2 m ρ c main_v1 : S1024x8192.Idx → EReal)
      = gateArr (rows (F := Ideal) (m ((c.tc : Thread nD τ).loc main_arg0)) (m ((c.tc : Thread nD τ).loc main_arg1)))
          (m ((c.tc : Thread nD τ).loc main_arg3)) (m ((c.tc : Thread nD τ).loc main_arg5)) (m ((c.tc : Thread nD τ).loc main_arg2)) := by
  refine (W2_arr m ρ c 4).trans ((Cert.KernelIdeal.Gate.final (V1 m ρ) c).trans ?_)
  show gateArr (V1 m ρ c main_v0) (V1 m ρ c main_arg3) (V1 m ρ c main_arg5) (V1 m ρ c main_arg2) = _
  rw [entry_rows m ρ c, entry_arg3 m ρ c, entry_arg5 m ρ c, entry_arg2 m ρ c]

/-- THE RESULT ARRAY at the last boundary, as one function of the argument arrays. -/
theorem result (c : Dev nD) :
    (W3 m ρ c (Proc.devRef .tc main_v2) : S1024x2048.Idx → EReal)
      = downArr (gateArr (rows (F := Ideal) (m ((c.tc : Thread nD τ).loc main_arg0)) (m ((c.tc : Thread nD τ).loc main_arg1)))
          (m ((c.tc : Thread nD τ).loc main_arg3)) (m ((c.tc : Thread nD τ).loc main_arg5)) (m ((c.tc : Thread nD τ).loc main_arg2)))
          (m ((c.tc : Thread nD τ).loc main_arg4)) := by
  refine (W3_arr m ρ c 2).trans ((Cert.KernelIdeal.Down.final (V2 m ρ) c).trans ?_)
  show downArr (V2 m ρ c main_v1) (V2 m ρ c main_arg4) = _
  rw [mid_gate m ρ c, mid_arg4 m ρ c]

end Cert.KernelIdeal.Whole

end
-- ==== Proof.RefRun.lean ====
/-
  The reference's run: @main as the list of its host operations, the three outlined functions (the row gather, its index
  select, the SiLU) listed at their calls, and every weakly fair execution ending with each buffer at the operations'
  fold over the launch contents.  The result buffer's fold is one term `refOut` of the six argument arrays:
  routing weight times ((SiLU(x W1ᵀ) ∘ (x W3ᵀ)) W2ᵀ), with x the gathered rows.
-/
import proofs.«129546_g49443663512208_cont_8to1c4_717_9_alg».proof.Proof.Gen.ReferenceIdeal
import proofs.«129546_g49443663512208_cont_8to1c4_717_9_alg».proof.Proof.TakeRows
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 41 operations, in order: the gather's 23 (the select of the wrapped index among them), a transpose and a
    product, the SiLU's 9, a transpose and a product, the gate's product, a transpose and the down product, the
    routing weight's broadcast and the last product. -/
abbrev ops : List (HloOp τ sig (Elt F)) :=
  [ TRef.nullary main_call0.c (constantI S_ 32 0#32),
    TRef.unary main_call0.c main_call0.v0 (broadcastInDim S1024 ![] bcast_S_S1024),
    TRef.binary (.of main_arg1) main_call0.v0 main_call0.v1 (cmpi .slt),
    TRef.nullary main_call0.c_0 (constantI S_ 32 4096#32),
    TRef.unary main_call0.c_0 main_call0.v2 (broadcastInDim S1024 ![] bcast_S_S1024),
    TRef.binary (.of main_arg1) main_call0.v2 main_call0.v3 addi,
    TRef.ternary main_call0.v1 main_call0.v3 (.of main_arg1) main_call0.call0.v0 select,
    TRef.unary main_call0.call0.v0 main_call0.v5 (broadcastInDim S1024x1 ![0] bcast_S1024_S1024x1_0),
    TRef.nullary main_call0.c_1 (constantI S1 32 4095#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg0) main_call0.v5 main_call0.v13 (fun x i => Host.gather gather_S4096x2048_S1024x1_S1024x2048_1_0_n_n_0_1_12048 x i),
    TRef.unary main_call0.v12 main_call0.v14 (broadcastInDim S1024x2048 ![0] bcast_S1024_S1024x2048_0),
    TRef.nullary main_call0.cst (constant S_ .f32 0x7FC00000#32),
    TRef.unary main_call0.cst main_call0.v15 (broadcastInDim S1024x2048 ![] bcast_S_S1024x2048),
    TRef.ternary main_call0.v14 main_call0.v13 main_call0.v15 main_call0.v16 select,
    unary main_arg3 main_v1 ((transpose S2048x8192 [1, 0] · transposes_S8192x2048_S2048x8192_1_0) : (⟨S8192x2048, .f32⟩ : BufTy).Contents (Elt F) → (⟨S2048x8192, .f32⟩ : BufTy).Contents (Elt F)),
    binary main_v0 main_v1 main_v2 ((fun l r => Host.dotGeneral dot_S1024x2048_S2048x8192_S1024x8192_1_0_0_1_n_n none l r) : (⟨S1024x2048, .f32⟩ : BufTy).Contents (Elt F) → (⟨S2048x8192, .f32⟩ : BufTy).Contents (Elt F) → (⟨S1024x8192, .f32⟩ : BufTy).Contents (Elt F)),
    TRef.unary (.of main_v2) main_call1.v0 Host.negf,
    TRef.unary main_call1.v0 main_call1.v1 Host.exp,
    TRef.nullary main_call1.cst (constant S_ .f32 0x3F800000#32),
    TRef.unary main_call1.cst main_call1.v2 (broadcastInDim S1024x8192 ![] bcast_S_S1024x8192),
    TRef.binary main_call1.v2 main_call1.v1 main_call1.v3 addf,
    TRef.nullary main_call1.cst_0 (constant S_ .f32 0x3F800000#32),
    TRef.unary main_call1.cst_0 main_call1.v4 (broadcastInDim S1024x8192 ![] bcast_S_S1024x8192),
    TRef.binary main_call1.v4 main_call1.v3 main_call1.v5 Host.divf,
    TRef.binary (.of main_v2) main_call1.v5 main_call1.v6 mulf,
    unary main_arg5 main_v4 ((transpose S2048x8192 [1, 0] · transposes_S8192x2048_S2048x8192_1_0) : (⟨S8192x2048, .f32⟩ : BufTy).Contents (Elt F) → (⟨S2048x8192, .f32⟩ : BufTy).Contents (Elt F)),
    binary main_v0 main_v4 main_v5 ((fun l r => Host.dotGeneral dot_S1024x2048_S2048x8192_S1024x8192_1_0_0_1_n_n none l r) : (⟨S1024x2048, .f32⟩ : BufTy).Contents (Elt F) → (⟨S2048x8192, .f32⟩ : BufTy).Contents (Elt F) → (⟨S1024x8192, .f32⟩ : BufTy).Contents (Elt F)),
    binary main_v3 main_v5 main_v6 (mulf : (⟨S1024x8192, .f32⟩ : BufTy).Contents (Elt F) → (⟨S1024x8192, .f32⟩ : BufTy).Contents (Elt F) → (⟨S1024x8192, .f32⟩ : BufTy).Contents (Elt F)),
    unary main_arg4 main_v7 ((transpose S8192x2048 [1, 0] · transposes_S2048x8192_S8192x2048_1_0) : (⟨S2048x8192, .f32⟩ : BufTy).Contents (Elt F) → (⟨S8192x2048, .f32⟩ : BufTy).Contents (Elt F)),
    binary main_v6 main_v7 main_v8 ((fun l r => Host.dotGeneral dot_S1024x8192_S8192x2048_S1024x2048_1_0_0_1_n_n none l r) : (⟨S1024x8192, .f32⟩ : BufTy).Contents (Elt F) → (⟨S8192x2048, .f32⟩ : BufTy).Contents (Elt F) → (⟨S1024x2048, .f32⟩ : BufTy).Contents (Elt F)),
    unary main_arg2 main_v9 (broadcastInDim S1024x2048 ![0, 1] bcast_S1024x1_S1024x2048_0_1 : (⟨S1024x1, .f32⟩ : BufTy).Contents (Elt F) → (⟨S1024x2048, .f32⟩ : BufTy).Contents (Elt F)),
    binary main_v9 main_v8 main_v10 (mulf : (⟨S1024x2048, .f32⟩ : BufTy).Contents (Elt F) → (⟨S1024x2048, .f32⟩ : BufTy).Contents (Elt F) → (⟨S1024x2048, .f32⟩ : BufTy).Contents (Elt F)) ]

set_option maxRecDepth 2048 in
/-- @main is that straight line: the functions' bodies unfolded at their calls, the sequencing reassociated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub ..,
    unary_bufs_sub .., binary_bufs_sub .., binary_bufs_sub .., unary_bufs_sub .., binary_bufs_sub .., unary_bufs_sub ..,
    binary_bufs_sub ..⟩

/-- Every weakly fair execution of @main terminates, nothing faulting, with every TensorCore buffer at the operations'
    fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The gathered rows, with this program's shape facts. -/
abbrev rows (hs : FVec F S4096x2048 .f32) (idx : IVec S1024 32) : FVec F S1024x2048 .f32 :=
  Cert.TakeRows.takeRows bcast_S_S1024 bcast_S1024_S1024x1_0 bcast_S_S1024x1 bcast_S1_S1x1_1 bcast_S1x1_S1024x1_0_1
    reducesTo_S1024x1_S1024_d1 h_S_ bcast_S1024_S1024x2048_0 bcast_S_S1024x2048
    gather_S4096x2048_S1024x1_S1024x2048_1_0_n_n_0_1_12048 hs idx

/-- SiLU on the host: h · (1 / (1 + exp (−h))), the two ones the float word of 1.0. -/
def silu (h : FVec F S1024x8192 .f32) : FVec F S1024x8192 .f32 :=
  mulf h (Host.divf (broadcastInDim S1024x8192 ![] bcast_S_S1024x8192 (constant S_ .f32 0x3F800000#32))
    (addf (broadcastInDim S1024x8192 ![] bcast_S_S1024x8192 (constant S_ .f32 0x3F800000#32)) (Host.exp (Host.negf h))))

/-- The reference's result from the gathered rows `x`: rw · ((SiLU(x W1ᵀ) ∘ (x W3ᵀ)) W2ᵀ). -/
def refOut (x : FVec F S1024x2048 .f32) (rw : FVec F S1024x1 .f32) (W1 : FVec F S8192x2048 .f32) (W2 : FVec F S2048x8192 .f32)
    (W3 : FVec F S8192x2048 .f32) : FVec F S1024x2048 .f32 :=
  mulf (broadcastInDim S1024x2048 ![0, 1] bcast_S1024x1_S1024x2048_0_1 rw)
    (Host.dotGeneral dot_S1024x8192_S8192x2048_S1024x2048_1_0_0_1_n_n none
      (mulf (silu (Host.dotGeneral dot_S1024x2048_S2048x8192_S1024x8192_1_0_0_1_n_n none x
          (transpose S2048x8192 [1, 0] W1 transposes_S8192x2048_S2048x8192_1_0)))
        (Host.dotGeneral dot_S1024x2048_S2048x8192_S1024x8192_1_0_0_1_n_n none x
          (transpose S2048x8192 [1, 0] W3 transposes_S8192x2048_S2048x8192_1_0)))
      (transpose S8192x2048 [1, 0] W2 transposes_S2048x8192_S8192x2048_1_0))

/-- The run read at the result and at the arguments: the result ends at `refOut` of the gathered rows and the argument
    arrays, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = refOut (rows (m ((c.tc : Thread nD τ).loc main_arg0)) (m ((c.tc : Thread nD τ).loc main_arg1)))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v10).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_all m ρ)

end Cert.ReferenceIdeal.Hand

end
-- ==== Proof.LibHostRows.lean ====
/-
  Rows of a matrix on the host, at the ideal values: the `broadcast_in_dim` steps a jnp program surrounds a row reduction
  with, and the host's own row reductions read at a row.

  A scalar broadcast to any shape reads the scalar everywhere (`scalar_apply`). A vector of length b viewed as a [1, b]
  row and the row repeated along the rows to [a, b] reads entry j at (i, j) (`row_apply`, `rowSpread_apply`): a bias
  added to every row. A vector of length a viewed as an [a, 1] column and the column repeated along the columns to [a, b]
  reads entry i at (i, j) (`column_apply`, `spread_apply`): a row statistic set against the matrix again.

  The host's one-operand reduce along the columns with a maximum body is, at row i, the fold of max from the initial
  value over the row's entries (`rowMaximum_apply`); its sum is the initial value plus the sum of the row's entries
  (`rowSum_apply`). Both with the row's entries written (i, k).
-/
import Idealize.ShloMosaic.PureOps.Ideal.Laws
import Idealize.ShloMosaic.PureOps.Reduce
import Idealize.ShloMosaic.Lib.ValueIdx
import Idealize.ShloMosaic.Lib.Pipeline.Value

noncomputable section

namespace Cert.LibHostRows

open Idealize.ShloMosaic Idealize.ShloMosaic.ValueIdx

variable {α : Type}

/-- A scalar broadcast to any shape reads the scalar at every index. -/
theorem scalar_apply {s : Shape} (v : (⟨0, ![]⟩ : Shape).Idx → α)
    (h : (⟨0, ![]⟩ : Shape).BroadcastsInDim s (![] : Fin 0 → Fin s.rank)) (j : s.Idx) :
    broadcastInDim s ![] h v j = v ix0 :=
  broadcastInDim_apply _ h v j ix0 fun c => c.elim0

/-- A vector of length `b` viewed as a [1, b] row reads entry `j` at (0, j). -/
theorem row_apply {b : ℕ} (v : (⟨1, ![b]⟩ : Shape).Idx → α)
    (h : (⟨1, ![b]⟩ : Shape).BroadcastsInDim ⟨2, ![1, b]⟩ (![1] : Fin 1 → Fin 2)) (u : Fin 1) (j : Fin b) (hb : b ≠ 1) :
    broadcastInDim ⟨2, ![1, b]⟩ ![1] h v (ix2 u j) = v (ix1 j) :=
  broadcastInDim_apply _ h v _ _ fun c => match c with
    | ⟨0, _⟩ => by
        show j.val = if b = 1 then 0 else j.val
        rw [if_neg hb]

/-- A [1, b] row repeated along the rows to [a, b] reads the row's entry `j` at (i, j). -/
theorem rowSpread_apply {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) (hb : b ≠ 1) :
    broadcastInDim ⟨2, ![a, b]⟩ ![0, 1] h v (ix2 i j) = v (ix2 (0 : Fin 1) j) :=
  broadcastInDim_apply _ h v _ _ fun c => match c with
    | ⟨0, _⟩ => rfl
    | ⟨1, _⟩ => by
        show j.val = if b = 1 then 0 else j.val
        rw [if_neg hb]

/-- A vector of length `a` viewed as an [a, 1] column reads entry `i` at (i, 0). -/
theorem column_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) (ha : a ≠ 1) :
    broadcastInDim ⟨2, ![a, 1]⟩ ![0] h v (ix2 i u) = v (ix1 i) :=
  broadcastInDim_apply _ h v _ _ fun c => match c with
    | ⟨0, _⟩ => by
        show i.val = if a = 1 then 0 else i.val
        rw [if_neg ha]

/-- An [a, 1] column repeated along the columns to [a, b] reads the column's entry `i` at (i, j). -/
theorem spread_apply {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) (ha : a ≠ 1) :
    broadcastInDim ⟨2, ![a, b]⟩ ![0, 1] h v (ix2 i j) = v (ix2 i (0 : Fin 1)) :=
  broadcastInDim_apply _ h v _ _ fun c => match c with
    | ⟨0, _⟩ => by
        show i.val = if a = 1 then 0 else i.val
        rw [if_neg ha]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The host's maximum along the columns, at row `i`: the fold of `max` from the initial value over the row's entries. -/
theorem rowMaximum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduce FloatOps.maximumf y init h' hu (ix1 i)
      = (Finset.univ : Finset (Fin b)).fold max (init (Shape.Idx.first hu)) (fun k => y (ix2 i k)) := by
  refine (Host.reduce_eq_fold_single FloatOps.maximumf y init h' h hu (ix1 i)).trans ?_
  exact congrArg (Finset.fold max (init (Shape.Idx.first hu)) · Finset.univ) (funext fun k => congrArg y (lift_row h i k))

/-- The host's sum along the columns, at row `i`: the initial value plus the sum of the row's entries. -/
theorem rowSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduceAdd y init h' hu (ix1 i) = init (Shape.Idx.first hu) + ∑ k : Fin b, y (ix2 i k) := by
  show Ideal.hostReduceAdd h' y (init (Shape.Idx.first hu)) (ix1 i) = _
  rw [Ideal.hostReduceAdd_single h' h]
  exact congrArg (_ + ·) (Finset.sum_congr rfl fun k _ => congrArg y (lift_row h i k))

end Cert.LibHostRows

end
-- ==== Proof.RefValue.lean ====
/-
  The reference's result read at an entry, at Ideal.

  Each of the host's three products contracts one axis, the second operand a transpose: x W1ᵀ at (b, h) is the inner
  product of row b of x with row h of W1, and likewise for W3 and, over the hidden units, for W2.  The outlined SiLU
  h · (1 / (1 + exp(−h))) is h times the logistic function of h, the two float words of 1.0 being 1.  So entry (b, f) of the
  reference's result is  rw[b] · Σ_h (h1 · σ(h1) · h3)[b,h] · W2[f,h].
-/
import proofs.«129546_g49443663512208_cont_8to1c4_717_9_alg».proof.Proof.RefRun
import proofs.«129546_g49443663512208_cont_8to1c4_717_9_alg».proof.Proof.Spec
import proofs.«129546_g49443663512208_cont_8to1c4_717_9_alg».proof.Proof.LibDot
import proofs.«129546_g49443663512208_cont_8to1c4_717_9_alg».proof.Proof.LibHostRows
import Idealize.ShloMosaic.Lib.ValueLayout
import Idealize.ShloMosaic.PureOps.IdealRules

noncomputable section

namespace Cert.ReferenceIdeal.RefValue

open Cert.ReferenceIdeal Cert.ReferenceIdeal.Gen Cert.ReferenceIdeal.Hand Cert.Spec Cert.LibDot
open Idealize.ShloMosaic Idealize.ShloMosaic.ValueIdx
open scoped BigOperators

local notation "DA" => dot_S1024x2048_S2048x8192_S1024x8192_1_0_0_1_n_n
local notation "DB" => dot_S1024x8192_S8192x2048_S1024x2048_1_0_0_1_n_n

/-- x Wᵀ at (b, h): the inner product of row b of x with row h of W. -/
theorem up_apply (x : FVec Ideal S1024x2048 .f32) (W : FVec Ideal S8192x2048 .f32) (b : Fin 1024) (h : Fin 8192) :
    Host.dotGeneral (F := Ideal) DA none x (transpose S2048x8192 [1, 0] W transposes_S8192x2048_S2048x8192_1_0) (ix2 b h)
      = proj x W b h := by
  refine (Ideal.dotGeneral_apply DA none .single x _ (ix2 b h)).trans ?_
  refine (contr_sum DA 2048 rfl rfl x _ (ix2 b h) (fun k => ix2 b k) (fun k => ix2 k h)
    (fun k r hk => funext fun a => Fin.ext (by
      match a with
      | ⟨0, _⟩ => rfl
      | ⟨1, _⟩ => exact (DotDims.lhsIdx_val_of_single DA rfl (ix2 b h) k).trans hk))
    (fun k r hk => funext fun a => Fin.ext (by
      match a with
      | ⟨0, _⟩ => exact (DotDims.rhsIdx_val_of_single DA rfl (ix2 b h) k).trans hk
      | ⟨1, _⟩ => rfl))).trans ?_
  unfold proj
  exact Finset.sum_congr rfl fun k _ => by rw [transpose_ix2_apply W transposes_S8192x2048_S2048x8192_1_0 k h]

/-- c W2ᵀ at (b, f): the inner product of row b of c with row f of W2. -/
theorem down_apply (c : FVec Ideal S1024x8192 .f32) (W2 : FVec Ideal S2048x8192 .f32) (b : Fin 1024) (f : Fin 2048) :
    Host.dotGeneral (F := Ideal) DB none c (transpose S8192x2048 [1, 0] W2 transposes_S2048x8192_S8192x2048_1_0) (ix2 b f)
      = ∑ h : Fin 8192, c (ix2 b h) * W2 (ix2 f h) := by
  refine (Ideal.dotGeneral_apply DB none .single c _ (ix2 b f)).trans ?_
  refine (contr_sum DB 8192 rfl rfl c _ (ix2 b f) (fun h => ix2 b h) (fun h => ix2 h f)
    (fun k r hk => funext fun a => Fin.ext (by
      match a with
      | ⟨0, _⟩ => rfl
      | ⟨1, _⟩ => exact (DotDims.lhsIdx_val_of_single DB rfl (ix2 b f) k).trans hk))
    (fun k r hk => funext fun a => Fin.ext (by
      match a with
      | ⟨0, _⟩ => exact (DotDims.rhsIdx_val_of_single DB rfl (ix2 b f) k).trans hk
      | ⟨1, _⟩ => rfl))).trans ?_
  exact Finset.sum_congr rfl fun h _ => by rw [transpose_ix2_apply W2 transposes_S2048x8192_S8192x2048_1_0 h f]

/-- The outlined SiLU at an entry: the entry times its logistic function. -/
theorem silu_apply (H : FVec Ideal S1024x8192 .f32) (i : S1024x8192.Idx) :
    silu (F := Ideal) H i = H i * Ideal.logistic (H i) := by
  have one : Ideal.ofBits .f32 0x3F800000#32 = 1 := IdealRules.sign_bit.ideal_onePat .f32
  show H i * Ideal.div (Ideal.ofBits .f32 0x3F800000#32) (Ideal.ofBits .f32 0x3F800000#32 + Ideal.exp (-(H i))) = _
  rw [one]
  rfl

/-- THE REFERENCE'S RESULT at entry (b, f). -/
theorem refOut_apply (x : FVec Ideal S1024x2048 .f32) (rw : FVec Ideal S1024x1 .f32) (W1 : FVec Ideal S8192x2048 .f32)
    (W2 : FVec Ideal S2048x8192 .f32) (W3 : FVec Ideal S8192x2048 .f32) (b : Fin 1024) (f : Fin 2048) :
    refOut (F := Ideal) x rw W1 W2 W3 (ix2 b f)
      = rw (ix2 b 0) * ∑ h : Fin 8192, (proj x W1 b h * Ideal.logistic (proj x W1 b h) * proj x W3 b h) * W2 (ix2 f h) := by
  unfold refOut
  show broadcastInDim S1024x2048 ![0, 1] bcast_S1024x1_S1024x2048_0_1 rw (ix2 b f)
      * Host.dotGeneral (F := Ideal) DB none _ (transpose S8192x2048 [1, 0] W2 transposes_S2048x8192_S8192x2048_1_0) (ix2 b f) = _
  rw [Cert.LibHostRows.spread_apply rw bcast_S1024x1_S1024x2048_0_1 b f (by decide), down_apply]
  refine congrArg (rw (ix2 b 0) * ·) (Finset.sum_congr rfl fun h _ => ?_)
  show silu (F := Ideal) _ (ix2 b h) * Host.dotGeneral (F := Ideal) DA none x _ (ix2 b h) * W2 (ix2 f h) = _
  rw [silu_apply, up_apply, up_apply]

end Cert.ReferenceIdeal.RefValue

end
-- ==== Proof.Bridge.lean ====
/-
  The two programs compute one function of real inputs.

  Entry (b, f) of the kernel's result is  Σ_h (g[b,h] · rw[b]) · W2[f,h]  with g = h1 · σ(h1) · h3; the reference's is
  rw[b] · Σ_h g[b,h] · W2[f,h].  When the gathered rows, the weights and the routing weights are real numbers every
  g[b,h] is real, and the common factor rw[b] leaves the sum.
-/
import proofs.«129546_g49443663512208_cont_8to1c4_717_9_alg».proof.Proof.RefValue
import proofs.«129546_g49443663512208_cont_8to1c4_717_9_alg».proof.Proof.Spec
import proofs.«129546_g49443663512208_cont_8to1c4_717_9_alg».proof.Proof.Algebra

noncomputable section

namespace Cert.Bridge

open Cert.Spec Cert.Algebra Cert.ReferenceIdeal.Hand
open Idealize.ShloMosaic Idealize.ShloMosaic.ValueIdx
open scoped BigOperators

theorem isReal_proj (x : S1024x2048.Idx → EReal) (W : S8192x2048.Idx → EReal) (hx : ∀ i, IsReal (x i)) (hW : ∀ i, IsReal (W i))
    (b : Fin 1024) (h : Fin 8192) : IsReal (proj x W b h) :=
  isReal_sum _ _ fun k => (hx _).mul (hW _)

/-- On real inputs the kernel's whole-array function is the reference's result. -/
theorem kernel_eq_reference (x : FVec Ideal S1024x2048 .f32) (rw : FVec Ideal S1024x1 .f32) (W1 : FVec Ideal S8192x2048 .f32)
    (W2 : FVec Ideal S2048x8192 .f32) (W3 : FVec Ideal S8192x2048 .f32) (hx : ∀ i, IsReal (x i)) (hrw : ∀ i, IsReal (rw i))
    (hW1 : ∀ i, IsReal (W1 i)) (hW2 : ∀ i, IsReal (W2 i)) (hW3 : ∀ i, IsReal (W3 i)) :
    downArr (gateArr x W1 W3 rw) W2 = refOut (F := Ideal) x rw W1 W2 W3 := by
  funext i
  obtain ⟨b, f, rfl⟩ : ∃ (b : Fin 1024) (f : Fin 2048), i = ix2 b f := ⟨i 0, i 1, eq_ix2 i⟩
  rw [Cert.ReferenceIdeal.RefValue.refOut_apply]
  exact scale_sum (fun h => proj x W1 b h * Ideal.logistic (proj x W1 b h) * proj x W3 b h) (fun h => W2 (ix2 f h)) (rw (ix2 b 0))
    (fun h => ((isReal_proj x W1 hx hW1 b h).mul (isReal_logistic (isReal_proj x W1 hx hW1 b h))).mul (isReal_proj x W3 hx hW3 b h))
    (fun h => hW2 _) (hrw _)

end Cert.Bridge

end
-- ==== Proof.PreRead.lean ====
/-
  The precondition, read back.

  The precondition is one bit: the conjunction of six `all`s.  When it is 1, every entry of the five float arrays has its
  absolute value below +∞ — so it is a real number, since −∞ has absolute value +∞ too — and every index word lies in
  [−4096, 4096) as a signed integer.
-/
import proofs.«129546_g49443663512208_cont_8to1c4_717_9_alg».proof.Pre_finite_inputs
import proofs.«129546_g49443663512208_cont_8to1c4_717_9_alg».proof.Proof.Gen.Pre_finite_inputs
import proofs.«129546_g49443663512208_cont_8to1c4_717_9_alg».proof.Proof.Algebra
import Idealize.ShloMosaic.Lib.ReduceAll
import Idealize.ShloMosaic.Lib.ValueIdx

noncomputable section

namespace Cert.PreRead

open Idealize.ShloMosaic Idealize.ShloMosaic.ValueIdx Cert.Algebra Cert.Pre_finite_inputs

instance : Subsingleton S_.Idx := ⟨fun a b => funext fun d => d.elim0⟩

/-- An extended real whose absolute value is below the +∞ word's value is a real number. -/
theorem real_of_abs_lt (x : EReal)
    (h : FloatOps.cmpf (F := Ideal) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => exact absurd h' (by simp [Ideal.cmp])
  | top => exact absurd h' (by simp [Ideal.cmp])
  | coe r => exact ⟨r, rfl⟩

/-- The precondition's six facts. -/
theorem decode [Cert.Pre_finite_inputs.Facts] (a0 : FVec Ideal S4096x2048 .f32) (a1 : IVec S1024 32) (a2 : FVec Ideal S1024x1 .f32)
    (a3 : FVec Ideal S8192x2048 .f32) (a4 : FVec Ideal S2048x8192 .f32) (a5 : FVec Ideal S8192x2048 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i))
      ∧ ∀ k, (-4096 : Int) ≤ (a1 k).toInt ∧ (a1 k).toInt < 4096 := by
  have h0 := congrFun h ix0
  dsimp only [Cert.Pre_finite_inputs.fn, Cert.Pre_finite_inputs.fn_part1] at h0
  obtain ⟨h1, hI⟩ := IntOp.andi_eq_one.1 h0
  obtain ⟨h2, h5⟩ := IntOp.andi_eq_one.1 h1
  obtain ⟨h3, h4⟩ := IntOp.andi_eq_one.1 h2
  obtain ⟨h6, hW1⟩ := IntOp.andi_eq_one.1 h3
  obtain ⟨hH, hR⟩ := IntOp.andi_eq_one.1 h6
  refine ⟨fun i => real_of_abs_lt _ (Host.reduce_andi_all _ _ _ _ _ hH i),
    fun i => real_of_abs_lt _ (Host.reduce_andi_all _ _ _ _ _ hR i),
    fun i => real_of_abs_lt _ (Host.reduce_andi_all _ _ _ _ _ hW1 i),
    fun i => real_of_abs_lt _ (Host.reduce_andi_all _ _ _ _ _ h4 i),
    fun i => real_of_abs_lt _ (Host.reduce_andi_all _ _ _ _ _ h5 i), fun k => ?_⟩
  have hk := Host.reduce_andi_all _ _ _ _ _ hI k
  obtain ⟨hge, hlt⟩ := IntOp.andi_eq_one.1 hk
  have e1 := IntOp.cmpi_sge.1 hge
  have e2 := IntOp.cmpi_slt.1 hlt
  have c1 : (4294963200#32 : BitVec 32).toInt = -4096 := by decide
  have c2 : (4096#32 : BitVec 32).toInt = 4096 := by decide
  exact ⟨c1 ▸ e1, c2 ▸ e2⟩

end Cert.PreRead

end
-- ==== Proof.lean ====
/-
  The certificate of the routed expert MLP kernel against its jnp reference.

  Both programs gather 1024 token rows from a table by index (an index below zero counted from the end; a row whose index
  still falls outside the table is filled with the not-a-number word, which the extended reals read as −∞) and apply a
  gated-SiLU MLP scaled by a routing weight.  The kernel folds the routing weight into the gate before the down
  projection, in two grid regions; the reference scales after it:
      kernel     out[b,f] = Σ_h ((h1·σ(h1)·h3)[b,h] · rw[b]) · W2[f,h]
      reference  out[b,f] = rw[b] · Σ_h (h1·σ(h1)·h3)[b,h] · W2[f,h]
  with h1 = x W1ᵀ, h3 = x W3ᵀ, σ the logistic function.  On real numbers the two are equal (a common factor leaves a finite
  sum); with an infinite entry they can differ, so the precondition keeps every float input finite and every index inside
  the table, which makes the gathered rows — and then every intermediate — real.

  The three frames: the two kernels' are the generated frame runs; the reference's is its run with the result dropped.
  The idealization rewrote nothing, so `preserves` is `True`.  For `algebraic`, the kernel's run names its result array
  as the down projection of the gate array of the gathered rows, the reference's run names its result as its composed
  host term, the gathered rows are one function on both sides, and the two whole-array functions agree on real inputs.
-/
import proofs.«129546_g49443663512208_cont_8to1c4_717_9_alg».proof.Defs
import proofs.«129546_g49443663512208_cont_8to1c4_717_9_alg».proof.Proof.Gen.Kernel
import proofs.«129546_g49443663512208_cont_8to1c4_717_9_alg».proof.Proof.Gen.Kernel.Skeleton
import proofs.«129546_g49443663512208_cont_8to1c4_717_9_alg».proof.Proof.Gen.Kernel.Launch
import proofs.«129546_g49443663512208_cont_8to1c4_717_9_alg».proof.Proof.Gen.Kernel.Points
import proofs.«129546_g49443663512208_cont_8to1c4_717_9_alg».proof.Proof.Gen.Kernel.Frame
import proofs.«129546_g49443663512208_cont_8to1c4_717_9_alg».proof.Proof.Gen.KernelIdeal
import proofs.«129546_g49443663512208_cont_8to1c4_717_9_alg».proof.Proof.Gen.KernelIdeal.Skeleton
import proofs.«129546_g49443663512208_cont_8to1c4_717_9_alg».proof.Proof.Gen.KernelIdeal.Launch
import proofs.«129546_g49443663512208_cont_8to1c4_717_9_alg».proof.Proof.Gen.KernelIdeal.Points
import proofs.«129546_g49443663512208_cont_8to1c4_717_9_alg».proof.Proof.Gen.KernelIdeal.Frame
import proofs.«129546_g49443663512208_cont_8to1c4_717_9_alg».proof.Proof.Gen.ReferenceIdeal
import proofs.«129546_g49443663512208_cont_8to1c4_717_9_alg».proof.Proof.Gen.Pre_finite_inputs
import proofs.«129546_g49443663512208_cont_8to1c4_717_9_alg».proof.Proof.KRun
import proofs.«129546_g49443663512208_cont_8to1c4_717_9_alg».proof.Proof.KValue
import proofs.«129546_g49443663512208_cont_8to1c4_717_9_alg».proof.Proof.RefRun
import proofs.«129546_g49443663512208_cont_8to1c4_717_9_alg».proof.Proof.Bridge
import proofs.«129546_g49443663512208_cont_8to1c4_717_9_alg».proof.Proof.PreRead
import Idealize.ShloMosaic.Adequacy
import Idealize.ShloMosaic.Init

noncomputable section

namespace Cert.Proof

open Idealize.ShloMosaic Idealize.SL.Sem Cert.Algebra

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

/-- The gathered rows are one function in the two programs: the same operations, the shape facts proofs. -/
theorem rows_eq (hs : FVec Ideal Cert.TakeRows.S4096x2048 .f32) (idx : IVec Cert.TakeRows.S1024 32) :
    Cert.KernelIdeal.Whole.rows (F := Ideal) hs idx = Cert.ReferenceIdeal.Hand.rows (F := Ideal) hs idx := rfl

/-- From memories agreeing on the arguments, under the precondition, both idealized programs run and end with equal
    results: the kernel's whole-array function of the arguments is the reference's composed term. -/
theorem algebraic : Cert.algebraic_KernelIdeal_ReferenceIdeal := by
  intro m ρ m' ρ' hpre hagree
  refine ⟨fun c => Cert.ReferenceIdeal.Hand.refOut (F := Ideal)
      (Cert.ReferenceIdeal.Hand.rows (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Out.run (F := Ideal) m ρ)
    obtain ⟨h0, h2, h3, h4, h5, hidx⟩ := Cert.PreRead.decode _ _ _ _ _ _ (hpre c)
    refine (Cert.KernelIdeal.Whole.result m ρ c).trans ?_
    rw [rows_eq]
    exact Cert.Bridge.kernel_eq_reference _ _ _ _ _
      (fun i => Cert.TakeRows.takeRows_real _ _ _ _ _ _ _ _ _ _ _ _ h0 hidx i) h2 h3 h4 h5
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
